-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S768x768 : Shape := ⟨2, ![768, 768]⟩
abbrev S768 : Shape := ⟨1, ![768]⟩
abbrev S1024x768 : Shape := ⟨2, ![1024, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1024x768 : S_.BroadcastsInDim S1024x768 (![] : Fin 0 → Fin S1024x768.rank)
  reducesTo_S1024x768_S_d0_1 : S1024x768.ReducesTo [0, 1] S_

variable [Facts]

def fn_part2 {F : FTy → Type} [FloatOps F] (main_arg7 : FVec F S1024x768 .f32) (main_v33 : IVec S_ 1) : IVec S_ 1 :=
  let main_v34 : FVec F S1024x768 .f32 := Host.absf main_arg7
  let main_cst_12 : FVec F S_ .f32 := constant S_ .f32 0x7F800000#32
  let main_v35 : FVec F S1024x768 .f32 := broadcastInDim S1024x768 ![] bcast_S_S1024x768 main_cst_12
  let main_v36 : IVec S1024x768 1 := cmpf .olt main_v34 main_v35
  let main_c_13 : IVec S_ 1 := constantI S_ 1 1#1
  let main_v37 : IVec S_ 1 := (fun x v => Host.reduce IntOp.andi x v reducesTo_S1024x768_S_d0_1 h_S_) main_v36 main_c_13
  let main_v38 : IVec S_ 1 := andi main_v33 main_v37
  main_v38

def fn_part1 {F : FTy → Type} [FloatOps F] (main_arg4 : FVec F S768 .f32) (main_arg5 : FVec F S768x768 .f32) (main_arg6 : FVec F S768 .f32) (main_arg7 : FVec F S1024x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_v33

def fn {F : FTy → Type} [FloatOps F] (main_arg0 : FVec F S32x1024x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S1024x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_v13 main_v16
-- ==== Kernel.lean ====
abbrev S32x1024x768 : Shape := ⟨3, ![32, 1024, 768]⟩
abbrev S768x768 : Shape := ⟨2, ![768, 768]⟩
abbrev S768 : Shape := ⟨1, ![768]⟩
abbrev S1024x768 : Shape := ⟨2, ![1024, 768]⟩
abbrev S1x1024x768 : Shape := ⟨3, ![1, 1024, 768]⟩
abbrev S1x512x768 : Shape := ⟨3, ![1, 512, 768]⟩
abbrev S1x768 : Shape := ⟨2, ![1, 768]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S32x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1024x768, .f32⟩
  | .hbm, ⟨8, _⟩ => ⟨S768x768, .bf16⟩
  | .hbm, ⟨9, _⟩ => ⟨S768x768, .bf16⟩
  | .hbm, ⟨10, _⟩ => ⟨S768x768, .bf16⟩
  | .hbm, ⟨11, _⟩ => ⟨S32x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1024x768, .f32⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S768, .f32⟩
  | .local _ .vmem, ⟨7, _⟩ => ⟨S768, .f32⟩
  | .local _ .vmem, ⟨8, _⟩ => ⟨S768, .f32⟩
  | .local _ .vmem, ⟨9, _⟩ => ⟨S1x512x768, .f32⟩
  | .local _ .vmem, ⟨10, _⟩ => ⟨S1x512x768, .f32⟩
  | .local _ .vmem, ⟨11, _⟩ => ⟨S1024x768, .bf16⟩
  | .local _ .vmem, ⟨12, _⟩ => ⟨S1024x768, .bf16⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v8 : Index := Scalar.indexCast v4
  let c0_2 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1024x768_S1024x768_0_0 : ∀ a, (![0, 0] : Fin 2 → Nat) a + S1024x768.size a ≤ S1024x768.size a
  h_S1024x768 : 0 < S1024x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  h_S1x512x768 : 0 < S1x512x768.numel
  shapeCasts_S1x512x768_S512x768 : S1x512x768.ShapeCasts S512x768
  h_S512x768 : 0 < S512x768.numel
  broadcasts_S1x768_S512x768 : S1x768.Broadcasts S512x768
  reduces_S512x1024_S512 : S512x1024.Reduces [1] S512
  shapeCasts_S512_S512x1 : S512.ShapeCasts S512x1
  broadcasts_S512x1_S512x1024 : S512x1.Broadcasts S512x1024
  inb_S1x512x768_S1x512x768_0_0_0 : ∀ a, (![0, 0, 0] : Fin 3 → Nat) a + S1x512x768.size a ≤ S1x512x768.size a
  shapeCasts_S512x768_S1x512x768 : S512x768.ShapeCasts S1x512x768
  dot_S1024x768_S768x768_S1024x768_1_1_0_0_n_n_wf : DotDims.WF S1024x768 S768x768 S1024x768 [1] [1] [0] [0] [] []
  dot_S512x768_S768x768_S512x768_1_1_0_0_n_n_wf : DotDims.WF S512x768 S768x768 S512x768 [1] [1] [0] [0] [] []
  dot_S512x768_S1024x768_S512x1024_1_1_0_0_n_n_wf : DotDims.WF S512x768 S1024x768 S512x1024 [1] [1] [0] [0] [] []
  dot_S512x1024_S1024x768_S512x768_1_0_0_1_n_n_wf : DotDims.WF S512x1024 S1024x768 S512x768 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x768.size a ≤ S1x1024x768.size a
  k0_off2_inb : ∀ i : grid0.Coords, ∀ a, (k0_off2 i) a + S512x768.size a ≤ S1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .f32 = 32 ∨ (Rect.block (s := S1024x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x768.size a ≤ S32x1024x768.size a
  hwx0_8 : ∀ i : grid0.Coords, EltTy.bits .f32 = 32 ∨ (Rect.block (s := S32x1024x768) S1x512x768.size (cc0_transform_8 i) (hinb0_8 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf
def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S768x768 : Shape := ⟨2, ![768, 768]⟩
abbrev S768 : Shape := ⟨1, ![768]⟩
abbrev S1024x768 : Shape := ⟨2, ![1024, 768]⟩
abbrev S1x1024x768 : Shape := ⟨3, ![1, 1024, 768]⟩
abbrev S1x1x768 : Shape := ⟨3, ![1, 1, 768]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1024x768, .f32⟩
  | .hbm, ⟨8, _⟩ => ⟨S1x1024x768, .f32⟩
  | .hbm, ⟨9, _⟩ => ⟨S32x1024x768, .f32⟩
  | .hbm, ⟨10, _⟩ => ⟨S32x1024x768, .f32⟩
  | .hbm, ⟨11, _⟩ => ⟨S32x1024x768, .f32⟩
  | .hbm, ⟨12, _⟩ => ⟨S1x1x768, .f32⟩
  | .hbm, ⟨13, _⟩ => ⟨S32x1024x768, .f32⟩
  | .hbm, ⟨14, _⟩ => ⟨S32x1024x768, .f32⟩
  | .hbm, ⟨15, _⟩ => ⟨S32x1024x768, .f32⟩
  | .hbm, ⟨16, _⟩ => ⟨S1x1x768, .f32⟩
  | .hbm, ⟨17, _⟩ => ⟨S32x1024x768, .f32⟩
  | .hbm, ⟨18, _⟩ => ⟨S32x1024x768, .f32⟩
  | .hbm, ⟨19, _⟩ => ⟨S32x1024x768, .f32⟩
  | .hbm, ⟨20, _⟩ => ⟨S1x1x768, .f32⟩
  | .hbm, ⟨21, _⟩ => ⟨S32x1024x768, .f32⟩
  | .hbm, ⟨22, _⟩ => ⟨S32x1024x768, .f32⟩
  | .hbm, ⟨23, _⟩ => ⟨S32x1024x1024, .f32⟩
  | .hbm, ⟨24, _⟩ => ⟨S_, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024x1, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024, .f32⟩
  | .hbm, ⟨38, _⟩ => ⟨S32x1024x1, .f32⟩
  | .hbm, ⟨39, _⟩ => ⟨S32x1024x1024, .f32⟩
  | .hbm, ⟨40, _⟩ => ⟨S32x1024x1024, .f32⟩
  | .hbm, ⟨41, _⟩ => ⟨S32x1024x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024x768_S1x1024x768_1_2 : S1024x768.BroadcastsInDim S1x1024x768 (![1, 2] : Fin 2 → Fin S1x1024x768.rank)
  bcast_S1x1024x768_S32x1024x768_0_1_2 : S1x1024x768.BroadcastsInDim S32x1024x768 (![0, 1, 2] : Fin 3 → Fin S32x1024x768.rank)
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x768_S768x768_S32x1024x768_2_1_01_0_n_n_wf : DotDims.WF S32x1024x768 S768x768 S32x1024x768 [2] [1] [0, 1] [0] [] []
  dot_S32x1024x768_S32x1024x768_S32x1024x1024_2_2_1_1_0_0_wf : DotDims.WF S32x1024x768 S32x1024x768 S32x1024x1024 [2] [2] [1] [1] [0] [0]
  dot_S32x1024x1024_S32x1024x768_S32x1024x768_2_1_1_2_0_0_wf : DotDims.WF S32x1024x1024 S32x1024x768 S32x1024x768 [2] [1] [1] [2] [0] [0]

variable [Facts₀]

def dot_S32x1024x768_S768x768_S32x1024x768_2_1_01_0_n_n : DotDims S32x1024x768 S768x768 S32x1024x768 where
  lhsContracting := [2]
  rhsContracting := [1]
  lhsNonContracting := [0, 1]
  rhsNonContracting := [0]
  lhsBatch := []
  rhsBatch := []
  wf := dot_S32x1024x768_S768x768_S32x1024x768_2_1_01_0_n_n_wf
def dot_S32x1024x768_S32x1024x768_S32x1024x1024_2_2_1_1_0_0 : DotDims S32x1024x768 S32x1024x768 S32x1024x1024 where
  lhsContracting := [2]
  rhsContracting := [2]
  lhsNonContracting := [1]
  rhsNonContracting := [1]
  lhsBatch := [0]
  rhsBatch := [0]
  wf := dot_S32x1024x768_S32x1024x768_S32x1024x1024_2_2_1_1_0_0_wf
def dot_S32x1024x1024_S32x1024x768_S32x1024x768_2_1_1_2_0_0 : DotDims S32x1024x1024 S32x1024x768 S32x1024x768 where
  lhsContracting := [2]
  rhsContracting := [1]
  lhsNonContracting := [1]
  rhsNonContracting := [2]
  lhsBatch := [0]
  rhsBatch := [0]
  wf := dot_S32x1024x1024_S32x1024x768_S32x1024x768_2_1_1_2_0_0_wf

class Facts : Prop extends Facts₀ where

variable [Facts]
-- ==== Proof.Pieces.lean ====
/-
  What one run of the kernel body leaves in its buffers, as values of what it loaded.

  At the first query tile of a batch the body fills the two resident buffers with the K rows and the V rows of the
  batch and then attends the tile against what it has just stored; at the second tile it attends against what the
  resident buffers already hold. In both cases the output block is the attention term of the tile's rows of the x and
  pos blocks (the rows from 512·qi on), and every store covers its buffer whole, so each buffer ends at the stored
  term itself.
-/
import proofs.«155104_j47244640256234_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the x block that the point's query tile reads. -/
def xTile (i : grid0.Coords) (x0 : Vec F S1x1024x768 .f32) : Vec F S1x512x768 .f32 :=
  View.ld x0 (Rect.unit (s := S1x1024x768) (k0_off1 i) S1x512x768.size (k0_off1_inb i))

/-- The same rows of the pos block. -/
def posTile (i : grid0.Coords) (x1 : Vec F S1024x768 .f32) : Vec F S512x768 .f32 :=
  View.ld x1 (Rect.unit (s := S1024x768) (k0_off2 i) S512x768.size (k0_off2_inb i))

/-- At a batch's first tile the first resident buffer ends at the K rows. -/
theorem sout_A_0 (c : Dev nD) (i : grid0.Coords) (arg2 : Memref sig .tc .vmem S1x1024x768 .f32) (harg2 : arg2.IsWhole) (arg3 : Memref sig .tc .vmem S1024x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S768 .f32) (harg8 : arg8.IsWhole) (arg9 : Memref sig .tc .vmem S768 .f32) (harg9 : arg9.IsWhole) (arg10 : Memref sig .tc .vmem S1x512x768 .f32) (harg10 : arg10.IsWhole) (arg11 : Memref sig .tc .vmem S1024x768 .bf16) (harg11 : arg11.IsWhole) (arg12 : Memref sig .tc .vmem S1024x768 .bf16) (harg12 : arg12.IsWhole) (hc0 : cond0_0 i) (x0 : Vec F S1x1024x768 .f32) (x1 : Vec F S1024x768 .f32) (x2 : Vec F S768x768 .bf16) (x3 : Vec F S768x768 .bf16) (x4 : Vec F S768x768 .bf16) (x5 : Vec F S768 .f32) (x6 : Vec F S768 .f32) (x7 : Vec F S768 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 x1 x3 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_run_names
  rw [View.canon_unit_zero hz2]
  simp only [View.readAt_eq_ld, harg2.read_unread, harg3.read_unread, harg5.read_unread, harg8.read_unread,
    View.ld_unit_zero (S := S1x1024x768) hz3, View.ld_unit_zero (S := S1024x768) hz2,
    View.ld_unit_zero (S := S768x768) hz2, View.ld_unit_zero (S := S768) hz1]

/-- At a batch's first tile the second resident buffer ends at the V rows. -/
theorem sout_A_1 (c : Dev nD) (i : grid0.Coords) (arg2 : Memref sig .tc .vmem S1x1024x768 .f32) (harg2 : arg2.IsWhole) (arg3 : Memref sig .tc .vmem S1024x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S768 .f32) (harg8 : arg8.IsWhole) (arg9 : Memref sig .tc .vmem S768 .f32) (harg9 : arg9.IsWhole) (arg10 : Memref sig .tc .vmem S1x512x768 .f32) (harg10 : arg10.IsWhole) (arg11 : Memref sig .tc .vmem S1024x768 .bf16) (harg11 : arg11.IsWhole) (arg12 : Memref sig .tc .vmem S1024x768 .bf16) (harg12 : arg12.IsWhole) (hc0 : cond0_0 i) (x0 : Vec F S1x1024x768 .f32) (x1 : Vec F S1024x768 .f32) (x2 : Vec F S768x768 .bf16) (x3 : Vec F S768x768 .bf16) (x4 : Vec F S768x768 .bf16) (x5 : Vec F S768 .f32) (x6 : Vec F S768 .f32) (x7 : Vec F S768 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x0 x1 x4 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_run_names
  rw [View.canon_unit_zero hz2]
  simp only [View.readAt_eq_ld, harg2.read_unread, harg3.read_unread, harg6.read_unread, harg9.read_unread,
    View.ld_unit_zero (S := S1x1024x768) hz3, View.ld_unit_zero (S := S1024x768) hz2,
    View.ld_unit_zero (S := S768x768) hz2, View.ld_unit_zero (S := S768) hz1]

/-- At a batch's first tile the output block is the tile's attention against the K and V rows just stored. -/
theorem out_A_8 (c : Dev nD) (i : grid0.Coords) (arg2 : Memref sig .tc .vmem S1x1024x768 .f32) (harg2 : arg2.IsWhole) (arg3 : Memref sig .tc .vmem S1024x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S768 .f32) (harg8 : arg8.IsWhole) (arg9 : Memref sig .tc .vmem S768 .f32) (harg9 : arg9.IsWhole) (arg10 : Memref sig .tc .vmem S1x512x768 .f32) (harg10 : arg10.IsWhole) (arg11 : Memref sig .tc .vmem S1024x768 .bf16) (harg11 : arg11.IsWhole) (arg12 : Memref sig .tc .vmem S1024x768 .bf16) (harg12 : arg12.IsWhole) (hc0 : cond0_0 i) (x0 : Vec F S1x1024x768 .f32) (x1 : Vec F S1024x768 .f32) (x2 : Vec F S768x768 .bf16) (x3 : Vec F S768x768 .bf16) (x4 : Vec F S768x768 .bf16) (x5 : Vec F S768 .f32) (x6 : Vec F S768 .f32) (x7 : Vec F S768 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7
      = k0_pay1 (k0_pay5 (xTile i x0) (posTile i x1) x2 x5 (k0_pay3 x0 x1 x3 x6) (k0_pay4 x0 x1 x4 x7)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_run_names
  rw [View.canon_unit_zero hz3]
  rw [View.readCov_unit_zero (S := S1024x768) _ hz2, View.readCov_unit_zero (S := S1024x768) _ hz2]
  simp only [View.readAt_eq_ld, harg2.read_unread, harg3.read_unread, harg4.read_unread, harg5.read_unread, harg6.read_unread,
    harg7.read_unread, harg8.read_unread, harg9.read_unread,
    View.ld_unit_zero (S := S1x1024x768) hz3, View.ld_unit_zero (S := S1024x768) hz2,
    View.ld_unit_zero (S := S768x768) hz2, View.ld_unit_zero (S := S768) hz1]
  rfl

/-- At a batch's second tile the output block is the tile's attention against what the resident buffers hold. -/
theorem out_B_8 (c : Dev nD) (i : grid0.Coords) (arg2 : Memref sig .tc .vmem S1x1024x768 .f32) (harg2 : arg2.IsWhole) (arg3 : Memref sig .tc .vmem S1024x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768 .f32) (harg7 : arg7.IsWhole) (arg8 : Memref sig .tc .vmem S768 .f32) (harg8 : arg8.IsWhole) (arg9 : Memref sig .tc .vmem S768 .f32) (harg9 : arg9.IsWhole) (arg10 : Memref sig .tc .vmem S1x512x768 .f32) (harg10 : arg10.IsWhole) (arg11 : Memref sig .tc .vmem S1024x768 .bf16) (harg11 : arg11.IsWhole) (arg12 : Memref sig .tc .vmem S1024x768 .bf16) (harg12 : arg12.IsWhole) (hc0 : ¬cond0_0 i) (x0 : Vec F S1x1024x768 .f32) (x1 : Vec F S1024x768 .f32) (x2 : Vec F S768x768 .bf16) (x3 : Vec F S768x768 .bf16) (x4 : Vec F S768x768 .bf16) (x5 : Vec F S768 .f32) (x6 : Vec F S768 .f32) (x7 : Vec F S768 .f32) (xs0 : Vec F S1024x768 .bf16) (xs1 : Vec F S1024x768 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = k0_pay1 (k0_pay5 (xTile i x0) (posTile i x1) x2 x5 xs0 xs1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_run_names
  rw [View.canon_unit_zero hz3]
  simp only [View.readAt_eq_ld, harg2.read_unread, harg3.read_unread, harg4.read_unread, harg7.read_unread,
    harg11.read_unread, harg12.read_unread,
    View.ld_unit_zero (S := S1024x768) hz2, View.ld_unit_zero (S := S768x768) hz2, View.ld_unit_zero (S := S768) hz1]
  rfl

end Cert.KernelIdeal.Pieces

end
-- ==== Proof.Blocks.lean ====
/-
  The blocks the kernel body reads at a grid point, as entries of the argument arrays.

  Point t of the 32 × 2 grid is batch t / 2, query tile t % 2. The x window's block is the batch's 1024 rows; every other
  input window's block is its whole array (pos, the three weights as the host rounded them — the identity over the
  extended reals — and the three biases); the query tile is rows 512·(t % 2) … of the x and pos blocks.
-/
import proofs.«155104_j47244640256234_2_alg».proof.Proof.Pieces
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- The eight argument arrays on core c. -/
abbrev aX : S32x1024x768.Idx → EReal := m ((c : Thread nD τ).loc main_arg0)
abbrev aWq : S768x768.Idx → EReal := m ((c : Thread nD τ).loc main_arg1)
abbrev aBq : S768.Idx → EReal := m ((c : Thread nD τ).loc main_arg2)
abbrev aWk : S768x768.Idx → EReal := m ((c : Thread nD τ).loc main_arg3)
abbrev aBk : S768.Idx → EReal := m ((c : Thread nD τ).loc main_arg4)
abbrev aWv : S768x768.Idx → EReal := m ((c : Thread nD τ).loc main_arg5)
abbrev aBv : S768.Idx → EReal := m ((c : Thread nD τ).loc main_arg6)
abbrev aPos : S1024x768.Idx → EReal := m ((c : Thread nD τ).loc main_arg7)

/-- The grid's coordinates and the windows' block indices at point t, decided over the 64 points: the batch is t / 2,
    the tile t % 2; only the x window and the output window move. -/
theorem grid_facts : ∀ t : Fin cfg0.N,
    (grid0.coords t 1).val = t.val % 2
    ∧ win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 3) = t.val / 2 ∧ win0_8.index t (1 : Fin 3) = t.val % 2 ∧ win0_8.index t (2 : Fin 3) = 0 :=
  (by decide +kernel : ∀ t : Fin grid0.N, _)

/-- The batch of point t. -/
def bOf (t : Fin cfg0.N) : Fin 32 := ⟨t.val / 2, by have := t.isLt; have hN : cfg0.N = 64 := N_0; omega⟩

/-! ## The arrays as the region finds them -/

/-- The host rounds each weight to bf16 before the call: over the extended reals that changes nothing. -/
theorem V_wq : (V m c main_v0 : S768x768.Idx → EReal) = aWq m c := by
  have e : V m c main_v0 = (truncf .bf16 (aWq m c : FVec Ideal S768x768 .f32) bitsLt_bf16_f32 : FVec Ideal S768x768 .bf16) := by
    dsimp only [V, hostOps0]; after_results <;> rfl
  rw [e]; rfl

theorem V_wk : (V m c main_v1 : S768x768.Idx → EReal) = aWk m c := by
  have e : V m c main_v1 = (truncf .bf16 (aWk m c : FVec Ideal S768x768 .f32) bitsLt_bf16_f32 : FVec Ideal S768x768 .bf16) := by
    dsimp only [V, hostOps0]; after_results <;> rfl
  rw [e]; rfl

theorem V_wv : (V m c main_v2 : S768x768.Idx → EReal) = aWv m c := by
  have e : V m c main_v2 = (truncf .bf16 (aWv m c : FVec Ideal S768x768 .f32) bitsLt_bf16_f32 : FVec Ideal S768x768 .bf16) := by
    dsimp only [V, hostOps0]; after_results <;> rfl
  rw [e]; rfl

/-! ## The input blocks -/

/-- The x block at point t is the batch t / 2: entry (0, s, d) is x[t / 2, s, d]. -/
theorem xblk_read (t : Fin cfg0.N) (y : S1x1024x768.Idx) (k : S32x1024x768.Idx) (h0 : (k 0).val = t.val / 2)
    (h1 : (k 1).val = (y 1).val) (h2 : (k 2).val = (y 2).val) :
    (iblk m c 0 t : Vec Ideal S1x1024x768 .f32) y = aX m c k := by
  obtain ⟨-, e0, e1, e2, -⟩ := grid_facts t
  have hy0 : (y 0).val < 1 := (y 0).isLt
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * (y 0).val = (k 0).val; rw [e0, h0]; omega
  | ⟨1, _⟩ => show win0_0.index t (1 : Fin 3) * 1024 + 1 * (y 1).val = (k 1).val; rw [e1, h1]; omega
  | ⟨2, _⟩ => show win0_0.index t (2 : Fin 3) * 768 + 1 * (y 2).val = (k 2).val; rw [e2, h2]; omega

theorem xblk_apply (t : Fin cfg0.N) (s : Fin 1024) (d : Fin 768) :
    (iblk m c 0 t : Vec Ideal S1x1024x768 .f32) (ix3 (0 : Fin 1) s d) = aX m c (ix3 (bOf t) s d) :=
  xblk_read m c t _ _ rfl rfl rfl

/-- The pos block is the whole pos array. -/
theorem posblk_read (t : Fin cfg0.N) (y k : S1024x768.Idx) (h0 : (k 0).val = (y 0).val) (h1 : (k 1).val = (y 1).val) :
    (iblk m c 1 t : Vec Ideal S1024x768 .f32) y = aPos m c k := by
  obtain ⟨-, -, -, -, e0, e1, -⟩ := grid_facts t
  unfold iblk
  rw [View.read_apply]
  show V m c main_arg7 _ = _
  rw [V_main_arg7]
  refine congrArg (m ((c : Thread nD τ).loc main_arg7)) (funext fun a => Fin.ext ?_)
  match a with
  | ⟨0, _⟩ => show win0_1.index t (0 : Fin 2) * 1024 + 1 * (y 0).val = (k 0).val; rw [e0, h0]; omega
  | ⟨1, _⟩ => show win0_1.index t (1 : Fin 2) * 768 + 1 * (y 1).val = (k 1).val; rw [e1, h1]; omega

theorem posblk_apply (t : Fin cfg0.N) (s : Fin 1024) (d : Fin 768) :
    (iblk m c 1 t : Vec Ideal S1024x768 .f32) (ix2 s d) = aPos m c (ix2 s d) :=
  posblk_read m c t _ _ rfl rfl

/-- The Wq block is the whole Wq array. -/
theorem wqblk_eq (t : Fin cfg0.N) : (iblk m c 2 t : Vec Ideal S768x768 .bf16) = aWq m c := by
  obtain ⟨-, -, -, -, -, -, e0, e1, -⟩ := grid_facts t
  funext j
  unfold iblk
  rw [View.read_apply]
  show V m c main_v0 _ = _
  rw [V_wq]
  refine congrArg (aWq m c) (funext fun a => Fin.ext ?_)
  match a with
  | ⟨0, _⟩ => show win0_2.index t (0 : Fin 2) * 768 + 1 * (j 0).val = (j 0).val; rw [e0]; omega
  | ⟨1, _⟩ => show win0_2.index t (1 : Fin 2) * 768 + 1 * (j 1).val = (j 1).val; rw [e1]; omega

/-- The Wk block is the whole Wk array. -/
theorem wkblk_eq (t : Fin cfg0.N) : (iblk m c 3 t : Vec Ideal S768x768 .bf16) = aWk m c := by
  obtain ⟨-, -, -, -, -, -, -, -, e0, e1, -⟩ := grid_facts t
  funext j
  unfold iblk
  rw [View.read_apply]
  show V m c main_v1 _ = _
  rw [V_wk]
  refine congrArg (aWk m c) (funext fun a => Fin.ext ?_)
  match a with
  | ⟨0, _⟩ => show win0_3.index t (0 : Fin 2) * 768 + 1 * (j 0).val = (j 0).val; rw [e0]; omega
  | ⟨1, _⟩ => show win0_3.index t (1 : Fin 2) * 768 + 1 * (j 1).val = (j 1).val; rw [e1]; omega

/-- The Wv block is the whole Wv array. -/
theorem wvblk_eq (t : Fin cfg0.N) : (iblk m c 4 t : Vec Ideal S768x768 .bf16) = aWv m c := by
  obtain ⟨-, -, -, -, -, -, -, -, -, -, e0, e1, -⟩ := grid_facts t
  funext j
  unfold iblk
  rw [View.read_apply]
  show V m c main_v2 _ = _
  rw [V_wv]
  refine congrArg (aWv m c) (funext fun a => Fin.ext ?_)
  match a with
  | ⟨0, _⟩ => show win0_4.index t (0 : Fin 2) * 768 + 1 * (j 0).val = (j 0).val; rw [e0]; omega
  | ⟨1, _⟩ => show win0_4.index t (1 : Fin 2) * 768 + 1 * (j 1).val = (j 1).val; rw [e1]; omega

/-- The bq block is the whole bq array. -/
theorem bqblk_eq (t : Fin cfg0.N) : (iblk m c 5 t : Vec Ideal S768 .f32) = aBq m c := by
  obtain ⟨-, -, -, -, -, -, -, -, -, -, -, -, e0, -⟩ := grid_facts t
  funext j
  unfold iblk
  rw [View.read_apply]
  show V m c main_arg2 _ = _
  rw [V_main_arg2]
  refine congrArg (m ((c : Thread nD τ).loc main_arg2)) (funext fun a => Fin.ext ?_)
  match a with
  | ⟨0, _⟩ => show win0_5.index t (0 : Fin 1) * 768 + 1 * (j 0).val = (j 0).val; rw [e0]; omega

/-- The bk block is the whole bk array. -/
theorem bkblk_eq (t : Fin cfg0.N) : (iblk m c 6 t : Vec Ideal S768 .f32) = aBk m c := by
  obtain ⟨-, -, -, -, -, -, -, -, -, -, -, -, -, e0, -⟩ := grid_facts t
  funext j
  unfold iblk
  rw [View.read_apply]
  show V m c main_arg4 _ = _
  rw [V_main_arg4]
  refine congrArg (m ((c : Thread nD τ).loc main_arg4)) (funext fun a => Fin.ext ?_)
  match a with
  | ⟨0, _⟩ => show win0_6.index t (0 : Fin 1) * 768 + 1 * (j 0).val = (j 0).val; rw [e0]; omega

/-- The bv block is the whole bv array. -/
theorem bvblk_eq (t : Fin cfg0.N) : (iblk m c 7 t : Vec Ideal S768 .f32) = aBv m c := by
  obtain ⟨-, -, -, -, -, -, -, -, -, -, -, -, -, -, e0, -⟩ := grid_facts t
  funext j
  unfold iblk
  rw [View.read_apply]
  show V m c main_arg6 _ = _
  rw [V_main_arg6]
  refine congrArg (m ((c : Thread nD τ).loc main_arg6)) (funext fun a => Fin.ext ?_)
  match a with
  | ⟨0, _⟩ => show win0_7.index t (0 : Fin 1) * 768 + 1 * (j 0).val = (j 0).val; rw [e0]; omega

/-! ## The query tile's rows -/

/-- Row r of the query tile's x rows is row 512·(t % 2) + r of the batch. -/
theorem xTile_apply (t : Fin cfg0.N) (r : Fin 512) (d : Fin 768) (s : Fin 1024) (hs : s.val = 512 * (t.val % 2) + r.val) :
    Pieces.xTile (grid0.coords t) (iblk m c 0 t : Vec Ideal S1x1024x768 .f32) (ix3 (0 : Fin 1) r d) = aX m c (ix3 (bOf t) s d) := by
  obtain ⟨eq, -⟩ := grid_facts t
  unfold Pieces.xTile
  show (iblk m c 0 t : Vec Ideal S1x1024x768 .f32) ((Rect.unit (s := S1x1024x768) (k0_off1 (grid0.coords t)) S1x512x768.size (k0_off1_inb (grid0.coords t))).emb (ix3 (0 : Fin 1) r d)) = _
  refine xblk_read m c t _ _ rfl ?_ ?_
  · show s.val = k0_off1 (grid0.coords t) 1 + 1 * r.val
    rw [k0_off1_eq]
    show s.val = 512 * (grid0.coords t 1).val + 1 * r.val
    rw [eq, hs]; omega
  · show d.val = k0_off1 (grid0.coords t) 2 + 1 * d.val
    rw [k0_off1_eq]
    show d.val = 0 + 1 * d.val
    omega

/-- Row r of the query tile's pos rows is row 512·(t % 2) + r of pos. -/
theorem posTile_apply (t : Fin cfg0.N) (r : Fin 512) (d : Fin 768) (s : Fin 1024) (hs : s.val = 512 * (t.val % 2) + r.val) :
    Pieces.posTile (grid0.coords t) (iblk m c 1 t : Vec Ideal S1024x768 .f32) (ix2 r d) = aPos m c (ix2 s d) := by
  obtain ⟨eq, -⟩ := grid_facts t
  unfold Pieces.posTile
  show (iblk m c 1 t : Vec Ideal S1024x768 .f32) ((Rect.unit (s := S1024x768) (k0_off2 (grid0.coords t)) S512x768.size (k0_off2_inb (grid0.coords t))).emb (ix2 r d)) = _
  refine posblk_read m c t _ _ ?_ ?_
  · show s.val = k0_off2 (grid0.coords t) 0 + 1 * r.val
    rw [k0_off2_eq]
    show s.val = 512 * (grid0.coords t 1).val + 1 * r.val
    rw [eq, hs]; omega
  · show d.val = k0_off2 (grid0.coords t) 1 + 1 * d.val
    rw [k0_off2_eq]
    show d.val = 0 + 1 * d.val
    omega

end Cert.KernelIdeal.Blocks

end
-- ==== Proof.Spec.lean ====
/-
  Single-head self-attention over the extended reals, as one function of the eight argument arrays.

  With h[b, s, ·] = x[b, s, ·] + pos[s, ·], the three linear layers Q, K, V of h (weight rows
  contracted with h's last axis, plus a bias), the scaled scores of a query row against the 1024 key
  rows of its batch, the row's maximum, the exponentials of the shifted scores, their sum, the
  quotient, and the weighted sum of the value rows:

    out[b, s, e] = ∑ t, (exp (sc t - max_t' sc t') / ∑ t', exp (sc t' - max sc)) · V[b, t, e],
    sc t = (∑ e', Q[b, s, e'] · K[b, t, e']) · c,        c the f32 word 0x3D13CD3A.

  The row-level pieces (`lin`, `attnRow`) are stated over rows as functions of a coordinate, so that a
  tile of 512 query rows against a resident K, V and the whole batched computation are instances of
  the same terms.
-/
import Idealize.ShloMosaic.PureOps.Ideal
import Idealize.ShloMosaic.Lib.ValueIdx

noncomputable section

open scoped BigOperators

namespace Cert.Attn

open Idealize.ShloMosaic Idealize.ShloMosaic.ValueIdx

/-- The argument shapes. -/
abbrev SX : Shape := ⟨3, ![32, 1024, 768]⟩
abbrev SW : Shape := ⟨2, ![768, 768]⟩
abbrev SB : Shape := ⟨1, ![768]⟩
abbrev SP : Shape := ⟨2, ![1024, 768]⟩

/-- One row through a linear layer whose weight is stored [out, in]: entry e is ∑ d, h d · w[e, d], plus the bias. -/
def lin (h : Fin 768 → EReal) (w : SW.Idx → EReal) (bias : SB.Idx → EReal) (e : Fin 768) : EReal :=
  (∑ d : Fin 768, h d * w (ix2 e d)) + bias (ix1 e)

/-- The scaled score of a query row against key row t. -/
def sc (q : Fin 768 → EReal) (k : Fin 1024 → Fin 768 → EReal) (t : Fin 1024) : EReal :=
  (∑ e : Fin 768, q e * k t e) * Ideal.ofBits .f32 0x3D13CD3A#32

/-- The largest score of the row, folded from the f32 word of -∞. -/
def mx (q : Fin 768 → EReal) (k : Fin 1024 → Fin 768 → EReal) : EReal :=
  (Finset.univ : Finset (Fin 1024)).fold max (Ideal.ofBits .f32 0xFF800000#32) (sc q k)

/-- The exponential of a score shifted by the row's maximum. -/
def num (q : Fin 768 → EReal) (k : Fin 1024 → Fin 768 → EReal) (t : Fin 1024) : EReal :=
  Ideal.exp (sc q k t - mx q k)

/-- The sum of the row's exponentials. -/
def den (q : Fin 768 → EReal) (k : Fin 1024 → Fin 768 → EReal) : EReal :=
  ∑ t : Fin 1024, num q k t

/-- The attention output of one query row: the value rows weighted by the normalized exponentials. -/
def attnRow (q : Fin 768 → EReal) (k v : Fin 1024 → Fin 768 → EReal) (e : Fin 768) : EReal :=
  ∑ t : Fin 1024, Ideal.div (num q k t) (den q k) * v t e

variable (x : SX.Idx → EReal) (wq : SW.Idx → EReal) (bq : SB.Idx → EReal) (wk : SW.Idx → EReal) (bk : SB.Idx → EReal)
  (wv : SW.Idx → EReal) (bv : SB.Idx → EReal) (pos : SP.Idx → EReal)

/-- The hidden row (b, s): the input row plus the positional row. -/
def hid (b : Fin 32) (s : Fin 1024) (d : Fin 768) : EReal := x (ix3 b s d) + pos (ix2 s d)

/-- The attention output at (b, s, e). -/
def attnAt (b : Fin 32) (s : Fin 1024) (e : Fin 768) : EReal :=
  attnRow (lin (hid x pos b s) wq bq) (fun t => lin (hid x pos b t) wk bk) (fun t => lin (hid x pos b t) wv bv) e

/-- The whole result array. -/
def attn : SX.Idx → EReal := fun i => attnAt x wq bq wk bk wv bv pos (i 0) (i 1) (i 2)

theorem attn_ix3 (b : Fin 32) (s : Fin 1024) (e : Fin 768) :
    attn x wq bq wk bk wv bv pos (ix3 b s e) = attnAt x wq bq wk bk wv bv pos b s e := rfl

/-- The start of a fold of max is below the fold, so taking the max with it again changes nothing. -/
theorem max_start_fold {ι : Type*} (s : Finset ι) (c : EReal) (g : ι → EReal) : max c (s.fold max c g) = s.fold max c g :=
  max_eq_right ((Finset.le_fold_max _).2 (Or.inl le_rfl))

end Cert.Attn

end
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.Pay.lean ====
/-
  What the kernel body computes, read at an index over the extended reals.

  The body's arithmetic is three pure terms of the values it loads: the K rows and the V rows of a batch (each a
  linear layer of the hidden rows x + pos, written to the two resident buffers), and the attention output of a tile of
  512 query rows against whatever the two resident buffers hold. The last is cut here into its stages — the query
  tile, the scaled scores, the shifted exponentials, the normalized weights — each read at an entry of its tile; put
  together they are `Cert.Attn.attnRow` of the query row and of the resident rows.
-/
import proofs.«155104_j47244640256234_2_alg».proof.Proof.Gen.KernelIdeal.Skeleton
import proofs.«155104_j47244640256234_2_alg».proof.Proof.Spec
import proofs.«155104_j47244640256234_2_alg».proof.Proof.LibTransposedDot
import proofs.«155104_j47244640256234_2_alg».proof.Proof.LibPlainDot
import proofs.«155104_j47244640256234_2_alg».proof.Proof.LibKeepdims
import proofs.«155104_j47244640256234_2_alg».proof.Proof.LibRowMax
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Attn

/-- A tile of M rows through a linear layer: the rows against the weight's rows, plus the bias row broadcast to every
    row of the tile. Entry (r, e) is the linear layer of row r at e. -/
theorem linTile_apply (M : Nat) (h : FVec Ideal ⟨2, ![M, 768]⟩ .bf16) (w : FVec Ideal ⟨2, ![768, 768]⟩ .bf16)
    (bias : FVec Ideal ⟨1, ![768]⟩ .f32) (hc : (⟨1, ![768]⟩ : Shape).ShapeCasts ⟨2, ![1, 768]⟩)
    (hb : (⟨2, ![1, 768]⟩ : Shape).Broadcasts ⟨2, ![M, 768]⟩) (r : Fin M) (e : Fin 768) :
    addf (matmul (DotDims.transposedRhs M 768 768) none h w (constant (F := Ideal) ⟨2, ![M, 768]⟩ .f32 0x00000000#32))
        (broadcastTo ⟨2, ![M, 768]⟩ (shapeCast ⟨2, ![1, 768]⟩ bias hc) hb) (ix2 r e)
      = lin (fun d => h (ix2 r d)) w bias e := by
  rw [addf_apply, broadcastTo_1b_ab_apply, shapeCast_a_1a_apply]
  unfold lin
  exact congrArg (· + bias (ix1 e)) (TransposedDot.matmul_zero_apply M 768 768 none h w r e)

/-- The hidden rows as the body forms them: the x block with its unit axis dropped, plus the pos block. -/
theorem pay2_apply (v39 : Vec Ideal S1x1024x768 .f32) (v41 : Vec Ideal S1024x768 .f32) (t : Fin 1024) (d : Fin 768) :
    k0_pay2 (F := Ideal) v39 v41 (ix2 t d) = v39 (ix3 (0 : Fin 1) t d) + v41 (ix2 t d) := by
  unfold k0_pay2
  show shapeCast S1024x768 v39 shapeCasts_S1x1024x768_S1024x768 (ix2 t d) + v41 (ix2 t d) = _
  rw [shapeCast_1ab_ab_apply]

/-- What the body stores in the first resident buffer: the K rows, a linear layer of the hidden rows. -/
theorem pay3_apply (v39 : Vec Ideal S1x1024x768 .f32) (v41 : Vec Ideal S1024x768 .f32) (v44 : Vec Ideal S768x768 .bf16)
    (v47 : Vec Ideal S768 .f32) (t : Fin 1024) (e : Fin 768) :
    k0_pay3 (F := Ideal) v39 v41 v44 v47 (ix2 t e) = lin (fun d => v39 (ix3 (0 : Fin 1) t d) + v41 (ix2 t d)) v44 v47 e := by
  unfold k0_pay3
  refine (congrFun (shapeCast_self _ shapeCasts_S1024x768_S1024x768) (ix2 t e)).trans ?_
  rw [shapeCast_self v44 shapeCasts_S768x768_S768x768]
  refine (linTile_apply 1024 (k0_pay2 (F := Ideal) v39 v41) v44 v47 shapeCasts_S768_S1x768 broadcasts_S1x768_S1024x768 t e).trans ?_
  exact congrArg (fun h => lin h v44 v47 e) (funext fun d => pay2_apply v39 v41 t d)

/-- What the body stores in the second resident buffer: the V rows. -/
theorem pay4_apply (v39 : Vec Ideal S1x1024x768 .f32) (v41 : Vec Ideal S1024x768 .f32) (v51 : Vec Ideal S768x768 .bf16)
    (v54 : Vec Ideal S768 .f32) (t : Fin 1024) (e : Fin 768) :
    k0_pay4 (F := Ideal) v39 v41 v51 v54 (ix2 t e) = lin (fun d => v39 (ix3 (0 : Fin 1) t d) + v41 (ix2 t d)) v51 v54 e := by
  unfold k0_pay4
  refine (congrFun (shapeCast_self _ shapeCasts_S1024x768_S1024x768) (ix2 t e)).trans ?_
  rw [shapeCast_self v51 shapeCasts_S768x768_S768x768]
  refine (linTile_apply 1024 (k0_pay2 (F := Ideal) v39 v41) v51 v54 shapeCasts_S768_S1x768 broadcasts_S1x768_S1024x768 t e).trans ?_
  exact congrArg (fun h => lin h v51 v54 e) (funext fun d => pay2_apply v39 v41 t d)

/-! ## The stages of the attention of a tile -/

/-- The query tile: a linear layer of the tile's hidden rows. -/
def qTile (v6 : FVec Ideal S1x512x768 .f32) (v9 : FVec Ideal S512x768 .f32) (v12 : FVec Ideal S768x768 .bf16)
    (v15 : FVec Ideal S768 .f32) : FVec Ideal S512x768 .bf16 :=
  truncf .bf16 (addf (matmul dot_S512x768_S768x768_S512x768_1_1_0_0_n_n none
      (truncf .bf16 (addf (shapeCast S512x768 v6 shapeCasts_S1x512x768_S512x768) v9) bitsLt_bf16_f32)
      (shapeCast S768x768 v12 shapeCasts_S768x768_S768x768) (constant (F := Ideal) S512x768 .f32 0x00000000#32))
    (broadcastTo S512x768 (shapeCast S1x768 v15 shapeCasts_S768_S1x768) broadcasts_S1x768_S512x768)) bitsLt_bf16_f32

/-- The scaled scores of the tile's rows against the resident key rows. -/
def scoreTile (q : FVec Ideal S512x768 .bf16) (v20 : FVec Ideal S1024x768 .bf16) : FVec Ideal S512x1024 .f32 :=
  mulf (matmul dot_S512x768_S1024x768_S512x1024_1_1_0_0_n_n none q v20 (constant (F := Ideal) S512x1024 .f32 0x00000000#32))
    (broadcast S512x1024 (Scalar.ofBits (F := Ideal) .f32 0x3D13CD3A#32))

/-- The exponentials of the scores shifted by their row's maximum. -/
def expTile (s : FVec Ideal S512x1024 .f32) : FVec Ideal S512x1024 .f32 :=
  exp (subf s (broadcastTo S512x1024 (shapeCast S512x1
    (multiReduction .maximumf [1] S512 s 0xFF800000#32 reduces_S512x1024_S512 (.inl rfl) rfl) shapeCasts_S512_S512x1)
    broadcasts_S512x1_S512x1024))

/-- The exponentials divided by their row's sum. -/
def weightTile (p : FVec Ideal S512x1024 .f32) : FVec Ideal S512x1024 .bf16 :=
  truncf .bf16 (divf p (broadcastTo S512x1024 (shapeCast S512x1
    (multiReduction .add [1] S512 p 0x00000000#32 reduces_S512x1024_S512 (.inl rfl) rfl) shapeCasts_S512_S512x1)
    broadcasts_S512x1_S512x1024)) bitsLt_bf16_f32

/-- The body's attention term is the product of the weights with the resident value rows. -/
theorem pay5_eq (v6 : FVec Ideal S1x512x768 .f32) (v9 : FVec Ideal S512x768 .f32) (v12 : FVec Ideal S768x768 .bf16)
    (v15 : FVec Ideal S768 .f32) (v20 v34 : FVec Ideal S1024x768 .bf16) :
    k0_pay5 (F := Ideal) v6 v9 v12 v15 v20 v34
      = matmul dot_S512x1024_S1024x768_S512x768_1_0_0_1_n_n none (weightTile (expTile (scoreTile (qTile v6 v9 v12 v15) v20))) v34
          (constant (F := Ideal) S512x768 .f32 0x00000000#32) := rfl

theorem qTile_apply (v6 : FVec Ideal S1x512x768 .f32) (v9 : FVec Ideal S512x768 .f32) (v12 : FVec Ideal S768x768 .bf16)
    (v15 : FVec Ideal S768 .f32) (s : Fin 512) (e : Fin 768) :
    qTile v6 v9 v12 v15 (ix2 s e) = lin (fun d => v6 (ix3 (0 : Fin 1) s d) + v9 (ix2 s d)) v12 v15 e := by
  unfold qTile
  rw [shapeCast_self v12 shapeCasts_S768x768_S768x768]
  refine (linTile_apply 512 _ v12 v15 shapeCasts_S768_S1x768 broadcasts_S1x768_S512x768 s e).trans ?_
  refine congrArg (fun h => lin h v12 v15 e) (funext fun d => ?_)
  show shapeCast S512x768 v6 shapeCasts_S1x512x768_S512x768 (ix2 s d) + v9 (ix2 s d) = _
  rw [shapeCast_1ab_ab_apply]

theorem scoreTile_apply (q : FVec Ideal S512x768 .bf16) (v20 : FVec Ideal S1024x768 .bf16) (s : Fin 512) (t : Fin 1024) :
    scoreTile q v20 (ix2 s t) = sc (fun e => q (ix2 s e)) (fun t e => v20 (ix2 t e)) t := by
  unfold scoreTile sc
  rw [mulf_apply, broadcast_apply]
  exact congrArg (· * Ideal.ofBits .f32 0x3D13CD3A#32) (TransposedDot.matmul_zero_apply 512 768 1024 none q v20 s t)

theorem expTile_apply (sT : FVec Ideal S512x1024 .f32) (s : Fin 512) (t : Fin 1024) :
    expTile sT (ix2 s t)
      = Ideal.exp (sT (ix2 s t) - (Finset.univ : Finset (Fin 1024)).fold max (Ideal.ofBits .f32 0xFF800000#32) (fun k => sT (ix2 s k))) := by
  unfold expTile
  show Ideal.exp (sT (ix2 s t) - broadcastTo S512x1024 _ broadcasts_S512x1_S512x1024 (ix2 s t)) = _
  rw [Cert.LibKeepdims.broadcastTo_a1_ab_apply, Cert.LibKeepdims.shapeCast_a_a1_apply]
  exact congrArg (fun m => Ideal.exp (sT (ix2 s t) - m))
    (Cert.LibRowMax.rowMax_apply sT 0xFF800000#32 reduces_S512x1024_S512 (.inl rfl) rfl s)

theorem weightTile_apply (p : FVec Ideal S512x1024 .f32) (s : Fin 512) (t : Fin 1024) :
    weightTile p (ix2 s t) = Ideal.div (p (ix2 s t)) (∑ k : Fin 1024, p (ix2 s k)) := by
  unfold weightTile
  show Ideal.div (p (ix2 s t)) (broadcastTo S512x1024 _ broadcasts_S512x1_S512x1024 (ix2 s t)) = _
  rw [Cert.LibKeepdims.broadcastTo_a1_ab_apply, Cert.LibKeepdims.shapeCast_a_a1_apply]
  exact congrArg (fun l => Ideal.div (p (ix2 s t)) l)
    (Cert.LibKeepdims.rowSum_apply p 0x00000000#32 reduces_S512x1024_S512 (.inl rfl) rfl s)

/-- The body's attention term at (s, e): the attention of the tile's query row s against the resident rows. -/
theorem pay5_apply (v6 : FVec Ideal S1x512x768 .f32) (v9 : FVec Ideal S512x768 .f32) (v12 : FVec Ideal S768x768 .bf16)
    (v15 : FVec Ideal S768 .f32) (v20 v34 : FVec Ideal S1024x768 .bf16) (s : Fin 512) (e : Fin 768) :
    k0_pay5 (F := Ideal) v6 v9 v12 v15 v20 v34 (ix2 s e)
      = attnRow (lin (fun d => v6 (ix3 (0 : Fin 1) s d) + v9 (ix2 s d)) v12 v15) (fun t e' => v20 (ix2 t e')) (fun t e' => v34 (ix2 t e')) e := by
  rw [pay5_eq]
  refine (PlainDot.matmul_zero_apply 512 1024 768 none _ v34 s e).trans ?_
  unfold attnRow den num mx
  simp only [weightTile_apply, expTile_apply, scoreTile_apply, qTile_apply]

end Cert.KernelIdeal.PayValue

end
-- ==== Proof.KernelValue.lean ====
/-
  The kernel's result array is the attention of its arguments.

  The two resident buffers are filled at the first tile of a batch (an even grid point) with the batch's K rows and V
  rows and are left alone at the second (the odd point after it), so at either point the body attends its 512 query
  rows against the K and V rows of the point's batch. The output block of point t is therefore rows
  512·(t % 2) … 512·(t % 2) + 511 of batch t / 2 of `Cert.Attn.attn`; the 64 blocks cover the array.
-/
import proofs.«155104_j47244640256234_2_alg».proof.Proof.Gen.KernelIdeal.Value
import proofs.«155104_j47244640256234_2_alg».proof.Proof.Blocks
import proofs.«155104_j47244640256234_2_alg».proof.Proof.Pay

set_option maxRecDepth 16384

noncomputable section

namespace Cert.KernelIdeal.KValue

open Cert.KernelIdeal Cert.KernelIdeal.Gen Cert.KernelIdeal.Blocks Cert.KernelIdeal.PayValue
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg) (c : Dev nD)

/-- The attention of a row depends only on the query row and the key and value rows. -/
theorem attnRow_congr {q q' : Fin 768 → EReal} {k k' v v' : Fin 1024 → Fin 768 → EReal} (hq : q = q') (hk : k = k')
    (hv : v = v') (e : Fin 768) : attnRow q k v e = attnRow q' k' v' e := by
  subst hq hk hv; rfl

/-- The value the body stores in the output block: its attention term with a unit axis put in front. -/
theorem pay1_apply (v35 : FVec Ideal S512x768 .f32) (u : Fin 1) (r : Fin 512) (e : Fin 768) :
    k0_pay1 (F := Ideal) v35 (ix3 u r e) = v35 (ix2 r e) := by
  unfold k0_pay1
  exact shapeCast_ab_1ab_apply v35 shapeCasts_S512x768_S1x512x768 u r e

/-- The rows of the specification: the query, key and value rows of batch b. -/
abbrev qRow (b : Fin 32) (s : Fin 1024) : Fin 768 → EReal := lin (hid (aX m c) (aPos m c) b s) (aWq m c) (aBq m c)
abbrev kRow (b : Fin 32) (s : Fin 1024) : Fin 768 → EReal := lin (hid (aX m c) (aPos m c) b s) (aWk m c) (aBk m c)
abbrev vRow (b : Fin 32) (s : Fin 1024) : Fin 768 → EReal := lin (hid (aX m c) (aPos m c) b s) (aWv m c) (aBv m c)

/-- The x block and the pos block at point t, at their literal shapes. -/
abbrev xB (t : Fin cfg0.N) : Vec Ideal S1x1024x768 .f32 := iblk m c 0 t
abbrev posB (t : Fin cfg0.N) : Vec Ideal S1024x768 .f32 := iblk m c 1 t

/-- The hidden row s of the blocks at point t is the hidden row (t / 2, s). -/
theorem hid_blk (t : Fin cfg0.N) (s : Fin 1024) :
    (fun d : Fin 768 => xB m c t (ix3 (0 : Fin 1) s d) + posB m c t (ix2 s d)) = hid (aX m c) (aPos m c) (bOf t) s := by
  funext d
  dsimp only [xB, posB]
  rw [xblk_apply, posblk_apply]
  rfl

/-- The K term of the blocks at point t: the K rows of batch t / 2. -/
theorem kpay_apply (t : Fin cfg0.N) (s : Fin 1024) (e : Fin 768) :
    k0_pay3 (F := Ideal) (iblk m c 0 t) (iblk m c 1 t) (iblk m c 3 t) (iblk m c 6 t) (ix2 s e) = kRow m c (bOf t) s e := by
  refine (pay3_apply (iblk m c 0 t) (iblk m c 1 t) (iblk m c 3 t) (iblk m c 6 t) s e).trans ?_
  rw [wkblk_eq, bkblk_eq]
  exact congrArg (fun h => lin h (aWk m c) (aBk m c) e) (hid_blk m c t s)

/-- The V term of the blocks at point t: the V rows of batch t / 2. -/
theorem vpay_apply (t : Fin cfg0.N) (s : Fin 1024) (e : Fin 768) :
    k0_pay4 (F := Ideal) (iblk m c 0 t) (iblk m c 1 t) (iblk m c 4 t) (iblk m c 7 t) (ix2 s e) = vRow m c (bOf t) s e := by
  refine (pay4_apply (iblk m c 0 t) (iblk m c 1 t) (iblk m c 4 t) (iblk m c 7 t) s e).trans ?_
  rw [wvblk_eq, bvblk_eq]
  exact congrArg (fun h => lin h (aWv m c) (aBv m c) e) (hid_blk m c t s)

/-- The query row r of the tile at point t is the query row (t / 2, 512·(t % 2) + r). -/
theorem qrow_eq (t : Fin cfg0.N) (r : Fin 512) (s : Fin 1024) (hs : s.val = 512 * (t.val % 2) + r.val) :
    lin (fun d => Pieces.xTile (grid0.coords t) (xB m c t) (ix3 (0 : Fin 1) r d)
        + Pieces.posTile (grid0.coords t) (posB m c t) (ix2 r d)) (iblk m c 2 t) (iblk m c 5 t)
      = qRow m c (bOf t) s := by
  rw [wqblk_eq, bqblk_eq]
  refine congrArg (fun h => lin h (aWq m c) (aBq m c)) (funext fun d => ?_)
  show Pieces.xTile (grid0.coords t) (iblk m c 0 t : Vec Ideal S1x1024x768 .f32) (ix3 (0 : Fin 1) r d)
      + Pieces.posTile (grid0.coords t) (iblk m c 1 t : Vec Ideal S1024x768 .f32) (ix2 r d) = _
  rw [xTile_apply m c t r d s hs, posTile_apply m c t r d s hs]
  rfl

/-! ## The resident buffers after the first tile of a batch -/

theorem kscr_even (t : Fin cfg0.N) (h0 : t.val % 2 = 0) (s : Fin 1024) (e : Fin 768) :
    (outsAt0 m c t.val t.isLt).2.1 (ix2 s e) = kRow m c (bOf t) s e := by
  rw [outsAt0_A m c t h0]
  dsimp only
  refine (congrFun (Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) (ix2 s e)).trans ?_
  exact kpay_apply m c t s e

theorem vscr_even (t : Fin cfg0.N) (h0 : t.val % 2 = 0) (s : Fin 1024) (e : Fin 768) :
    (outsAt0 m c t.val t.isLt).2.2 (ix2 s e) = vRow m c (bOf t) s e := by
  rw [outsAt0_A m c t h0]
  dsimp only
  refine (congrFun (Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) (ix2 s e)).trans ?_
  exact vpay_apply m c t s e

/-! ## The output block after each point -/

/-- At a batch's first tile. -/
theorem out_even (t : Fin cfg0.N) (h0 : t.val % 2 = 0) (r : Fin 512) (e : Fin 768) (s : Fin 1024)
    (hs : s.val = 512 * (t.val % 2) + r.val) :
    (outsAt0 m c t.val t.isLt).1 (ix3 (0 : Fin 1) r e) = attnAt (aX m c) (aWq m c) (aBq m c) (aWk m c) (aBk m c) (aWv m c) (aBv m c) (aPos m c) (bOf t) s e := by
  rw [outsAt0_A m c t h0]
  dsimp only
  refine (congrFun (Pieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) (ix3 (0 : Fin 1) r e)).trans ?_
  refine (pay1_apply _ (0 : Fin 1) r e).trans ?_
  refine (pay5_apply _ _ _ _ _ _ r e).trans ?_
  unfold attnAt
  refine attnRow_congr (qrow_eq m c t r s hs) ?_ ?_ e
  · funext t' e'; exact kpay_apply m c t t' e'
  · funext t' e'; exact vpay_apply m c t t' e'

/-- At a batch's second tile: the resident buffers hold what the first tile stored. -/
theorem out_odd (t : Fin cfg0.N) (h0 : ¬t.val % 2 = 0) (r : Fin 512) (e : Fin 768) (s : Fin 1024)
    (hs : s.val = 512 * (t.val % 2) + r.val) :
    (outsAt0 m c t.val t.isLt).1 (ix3 (0 : Fin 1) r e) = attnAt (aX m c) (aWq m c) (aBq m c) (aWk m c) (aBk m c) (aWv m c) (aBv m c) (aPos m c) (bOf t) s e := by
  have hN : cfg0.N = 64 := N_0
  have hlt : t.val - 1 < cfg0.N := by have := t.isLt; omega
  have hb : bOf ⟨t.val - 1, hlt⟩ = bOf t := Fin.ext (by show (t.val - 1) / 2 = t.val / 2; omega)
  have he : (⟨t.val - 1, hlt⟩ : Fin cfg0.N).val % 2 = 0 := by show (t.val - 1) % 2 = 0; omega
  rw [outsAt0_B m c t h0]
  dsimp only
  refine (congrFun (Pieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) r e)).trans ?_
  refine (pay1_apply _ (0 : Fin 1) r e).trans ?_
  refine (pay5_apply _ _ _ _ _ _ r e).trans ?_
  unfold attnAt
  refine attnRow_congr (qrow_eq m c t r s hs) ?_ ?_ e
  · funext t' e'; rw [← hb]; exact kscr_even m c ⟨t.val - 1, hlt⟩ he t' e'
  · funext t' e'; rw [← hb]; exact vscr_even m c ⟨t.val - 1, hlt⟩ he t' e'

theorem out_apply (t : Fin cfg0.N) (r : Fin 512) (e : Fin 768) (s : Fin 1024) (hs : s.val = 512 * (t.val % 2) + r.val) :
    (outsAt0 m c t.val t.isLt).1 (ix3 (0 : Fin 1) r e) = attnAt (aX m c) (aWq m c) (aBq m c) (aWk m c) (aBk m c) (aWv m c) (aBv m c) (aPos m c) (bOf t) s e := by
  by_cases h0 : t.val % 2 = 0
  · exact out_even m c t h0 r e s hs
  · exact out_odd m c t h0 r e s hs

/-! ## From the blocks to the array -/

/-- The result array. -/
abbrev G : Buf (Elt Ideal) ((c : Thread nD τ).loc main_v3) := attn (aX m c) (aWq m c) (aBq m c) (aWk m c) (aBk m c) (aWv m c) (aBv m c) (aPos m c)

/-- What point t writes back is block t of the attention array. -/
theorem flushed_eq (t : Fin cfg0.N) :
    (dats m 0 c).flushed 8 t = ((cfg0.win 8).blk t).view.read (Elt Ideal) (G m c) := by
  obtain ⟨-, -, -, -, -, -, -, -, -, -, -, -, -, -, -, e0, e1, e2⟩ := grid_facts t
  have hN : cfg0.N = 64 := N_0
  have htl := t.isLt
  rw [Value.flushed8]
  funext j
  rw [View.read_apply]
  show (outsAt0 m c t.val t.isLt).1 j = G m c (((cfg0.win 8).blk t).view.emb j)
  obtain ⟨u, r, e, rfl⟩ : ∃ (u : Fin 1) (r : Fin 512) (e : Fin 768), j = ix3 u r e := ⟨j 0, j 1, j 2, eq_ix3 j⟩
  obtain rfl : u = 0 := Subsingleton.elim _ _
  have hr := r.isLt
  have hemb : ((cfg0.win 8).blk t).view.emb (ix3 (0 : Fin 1) r e) = ix3 (bOf t) ⟨512 * (t.val % 2) + r.val, by omega⟩ e := by
    funext a; apply Fin.ext
    match a with
    | ⟨0, _⟩ => show win0_8.index t (0 : Fin 3) * 1 + 1 * 0 = t.val / 2; rw [e0]; omega
    | ⟨1, _⟩ => show win0_8.index t (1 : Fin 3) * 512 + 1 * r.val = 512 * (t.val % 2) + r.val; rw [e1]; omega
    | ⟨2, _⟩ => show win0_8.index t (2 : Fin 3) * 768 + 1 * e.val = e.val; rw [e2]; omega
  rw [hemb]
  exact out_apply m c t r e ⟨512 * (t.val % 2) + r.val, by omega⟩ rfl

/-- An index of the array is in point t's block iff each coordinate is in the block's range on its axis. -/
theorem mem_blk (t : Fin cfg0.N) (i : S32x1024x768.Idx) :
    i ∈ ((cfg0.win 8).blk t).view.set ↔ ∀ a : Fin 3, win0_8.index t a * S1x512x768.size a ≤ (i a).val
      ∧ (i a).val < win0_8.index t a * S1x512x768.size a + S1x512x768.size a := by
  show i ∈ ((View.whole main_v3).slice (win0_8.rect t)).set ↔ _
  rw [View.set_slice_whole, Rect.mem_set_unit]
  exact Iff.rfl

/-- Every index (b, s, e) of the array is in the block of point 2·b + s / 512. -/
theorem cover (i : S32x1024x768.Idx) : ∃ t : Fin cfg0.N, (cfg0.win 8).flush t = true ∧ i ∈ ((cfg0.win 8).blk t).view.set := by
  have hN : cfg0.N = 64 := N_0
  have h0 : (i 0).val < 32 := (i 0).isLt
  have h1 : (i 1).val < 1024 := (i 1).isLt
  have h2 : (i 2).val < 768 := (i 2).isLt
  refine ⟨⟨2 * (i 0).val + (i 1).val / 512, by omega⟩, flush0_8 _, ?_⟩
  obtain ⟨-, -, -, -, -, -, -, -, -, -, -, -, -, -, -, e0, e1, e2⟩ := grid_facts ⟨2 * (i 0).val + (i 1).val / 512, by omega⟩
  rw [mem_blk]
  intro a
  match a with
  | ⟨0, _⟩ =>
    show win0_8.index _ (0 : Fin 3) * 1 ≤ (i 0).val ∧ (i 0).val < win0_8.index _ (0 : Fin 3) * 1 + 1
    rw [e0]; show (2 * (i 0).val + (i 1).val / 512) / 2 * 1 ≤ (i 0).val ∧ (i 0).val < (2 * (i 0).val + (i 1).val / 512) / 2 * 1 + 1; omega
  | ⟨1, _⟩ =>
    show win0_8.index _ (1 : Fin 3) * 512 ≤ (i 1).val ∧ (i 1).val < win0_8.index _ (1 : Fin 3) * 512 + 512
    rw [e1]; show (2 * (i 0).val + (i 1).val / 512) % 2 * 512 ≤ (i 1).val ∧ (i 1).val < (2 * (i 0).val + (i 1).val / 512) % 2 * 512 + 512; omega
  | ⟨2, _⟩ =>
    show win0_8.index _ (2 : Fin 3) * 768 ≤ (i 2).val ∧ (i 2).val < win0_8.index _ (2 : Fin 3) * 768 + 768
    rw [e2]; omega

/-- So the result array ends at the attention array. -/
theorem final : (dats m 0 c).arrAt 8 cfg0.N = G m c :=
  (dats m 0 c).arrAt_eq_of_cover 8 (G m c) (fun t _ => flushed_eq m c t) (cover)

/-- The kernel's run, read: the result array at the attention of the arguments, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KValue

end
-- ==== Proof.RefSpec.lean ====
/-
  The reference computes single-head self-attention: its result array, read one operation at a time at an index
  written by coordinates, is `Cert.Attn.attn` of its eight arguments.

  The steps follow the program: the hidden rows h = x + pos (two broadcasts and a sum), the three linear layers
  (a contraction over the last axis of h and of the weight, plus a broadcast bias), the batched scores scaled by the
  constant, the row maximum (a fold of max from -∞, joined once more with -∞), the shifted exponentials, their sum
  (from zero), the quotient, and the batched product with V.
-/
import proofs.«155104_j47244640256234_2_alg».proof.Proof.Gen.ReferenceIdeal.Read
import proofs.«155104_j47244640256234_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

variable (x0 : (⟨S32x1024x768, .f32⟩ : BufTy).Contents (Elt Ideal)) (x1 : (⟨S768x768, .f32⟩ : BufTy).Contents (Elt Ideal))
  (x2 : (⟨S768, .f32⟩ : BufTy).Contents (Elt Ideal)) (x3 : (⟨S768x768, .f32⟩ : BufTy).Contents (Elt Ideal))
  (x4 : (⟨S768, .f32⟩ : BufTy).Contents (Elt Ideal)) (x5 : (⟨S768x768, .f32⟩ : BufTy).Contents (Elt Ideal))
  (x6 : (⟨S768, .f32⟩ : BufTy).Contents (Elt Ideal)) (x7 : (⟨S1024x768, .f32⟩ : BufTy).Contents (Elt Ideal))

/-- The hidden rows: x plus pos broadcast over the batch. -/
theorem hidden_apply (b : Fin 32) (s : Fin 1024) (d : Fin 768) :
    val_main_v2 (F := Ideal) x0 x7 (ix3 b s d) = hid x0 x7 b s d := by
  rw [val_main_v2_apply, val_main_v1_apply, val_main_v0_apply]
  have e : idx_main_v0 (idx_main_v1 (ix3 b s d)) = ix2 s d :=
    funext fun a => Fin.ext (by match a with | ⟨0, _⟩ => rfl | ⟨1, _⟩ => rfl)
  rw [e]
  rfl

/-- The bias of a linear layer, broadcast to every row: entry e. -/
theorem bias_idx (b : Fin 32) (s : Fin 1024) (e : Fin 768) : idx_main_v4 (idx_main_v5 (ix3 b s e)) = ix1 e :=
  funext fun a => Fin.ext (by match a with | ⟨0, _⟩ => rfl)

theorem lidx3 (b : Fin 32) (s : Fin 1024) (e : Fin 768) (k : Fin 768) : lidx_main_v3 (ix3 b s e) k = ix3 b s k :=
  funext fun a => Fin.ext (by match a with | ⟨0, _⟩ => rfl | ⟨1, _⟩ => rfl | ⟨2, _⟩ => rfl)

theorem ridx3 (b : Fin 32) (s : Fin 1024) (e : Fin 768) (k : Fin 768) : ridx_main_v3 (ix3 b s e) k = ix2 e k :=
  funext fun a => Fin.ext (by match a with | ⟨0, _⟩ => rfl | ⟨1, _⟩ => rfl)

/-- Q: the first linear layer of the hidden rows. -/
theorem q_apply (b : Fin 32) (s : Fin 1024) (e : Fin 768) :
    val_main_v6 (F := Ideal) x0 x1 x2 x7 (ix3 b s e) = lin (hid x0 x7 b s) x1 x2 e := by
  rw [val_main_v6_apply, val_main_v3_apply, val_main_v5_apply, val_main_v4_apply]
  unfold lin
  rw [Ideal.addf_def]
  refine congrArg₂ (· + ·) (Finset.sum_congr rfl fun k _ => ?_) (congrArg x2 (bias_idx b s e))
  rw [lidx3, ridx3, hidden_apply]

/-- K: the second. -/
theorem k_apply (b : Fin 32) (s : Fin 1024) (e : Fin 768) :
    val_main_v10 (F := Ideal) x0 x3 x4 x7 (ix3 b s e) = lin (hid x0 x7 b s) x3 x4 e := by
  rw [val_main_v10_apply, val_main_v7_apply, val_main_v9_apply, val_main_v8_apply]
  unfold lin
  rw [Ideal.addf_def]
  refine congrArg₂ (· + ·) (Finset.sum_congr rfl fun k _ => ?_) (congrArg x4 (bias_idx b s e))
  rw [show lidx_main_v7 (ix3 b s e) k = ix3 b s k from lidx3 b s e k, show ridx_main_v7 (ix3 b s e) k = ix2 e k from ridx3 b s e k,
    hidden_apply]

/-- V: the third. -/
theorem v_apply (b : Fin 32) (s : Fin 1024) (e : Fin 768) :
    val_main_v14 (F := Ideal) x0 x5 x6 x7 (ix3 b s e) = lin (hid x0 x7 b s) x5 x6 e := by
  rw [val_main_v14_apply, val_main_v11_apply, val_main_v13_apply, val_main_v12_apply]
  unfold lin
  rw [Ideal.addf_def]
  refine congrArg₂ (· + ·) (Finset.sum_congr rfl fun k _ => ?_) (congrArg x6 (bias_idx b s e))
  rw [show lidx_main_v11 (ix3 b s e) k = ix3 b s k from lidx3 b s e k, show ridx_main_v11 (ix3 b s e) k = ix2 e k from ridx3 b s e k,
    hidden_apply]

/-- The query row and the key and value rows of batch b, as the specification takes them. -/
abbrev qrow (b : Fin 32) (s : Fin 1024) : Fin 768 → EReal := lin (hid x0 x7 b s) x1 x2
abbrev krows (b : Fin 32) : Fin 1024 → Fin 768 → EReal := fun t => lin (hid x0 x7 b t) x3 x4
abbrev vrows (b : Fin 32) : Fin 1024 → Fin 768 → EReal := fun t => lin (hid x0 x7 b t) x5 x6

/-- The scaled scores. -/
theorem scores_apply (b : Fin 32) (s t : Fin 1024) :
    val_main_v17 (F := Ideal) x0 x1 x2 x3 x4 x7 (ix3 b s t) = sc (qrow x0 x1 x2 x7 b s) (krows x0 x3 x4 x7 b) t := by
  rw [val_main_v17_apply, val_main_v15_apply, val_main_v16_apply, val_main_cst_apply]
  unfold sc
  rw [Ideal.mulf_def, Ideal.ofBits_def]
  refine congrArg (· * _) (Finset.sum_congr rfl fun k _ => ?_)
  have el : lidx_main_v15 (ix3 b s t) k = ix3 b s k :=
    funext fun a => Fin.ext (by match a with | ⟨0, _⟩ => rfl | ⟨1, _⟩ => rfl | ⟨2, _⟩ => rfl)
  have er : ridx_main_v15 (ix3 b s t) k = ix3 b t k :=
    funext fun a => Fin.ext (by match a with | ⟨0, _⟩ => rfl | ⟨1, _⟩ => rfl | ⟨2, _⟩ => rfl)
  rw [el, er, q_apply, k_apply]

/-- The row maximum: the host's reduce is a fold of max from -∞ over the last coordinate, and the further max with
    -∞ changes nothing. -/
theorem rowmax_apply (b : Fin 32) (s : Fin 1024) :
    val_main_v20 (F := Ideal) x0 x1 x2 x3 x4 x7 (ix2 b s) = mx (qrow x0 x1 x2 x7 b s) (krows x0 x3 x4 x7 b) := by
  have hred : S32x1024x1024.Reduces [2] S32x1024 := by decide
  rw [val_main_v20_apply, val_main_v19_apply, val_main_cst_1_apply]
  unfold val_main_v18
  rw [Host.reduce_eq_fold_single (FloatOps.maximumf (F := Ideal) (φ := .f32)) _ _ reducesTo_S32x1024x1024_S32x1024_d2 hred h_S_]
  rw [val_main_cst_0_apply, Ideal.maximumf_def, Ideal.ofBits_def]
  have e : (val_main_v17 (F := Ideal) x0 x1 x2 x3 x4 x7 ∘ hred.lift (ix2 b s)) = sc (qrow x0 x1 x2 x7 b s) (krows x0 x3 x4 x7 b) := by
    refine funext fun (t : Fin 1024) => ?_
    have ei : hred.lift (ix2 b s) t = ix3 b s t :=
      funext fun a => Fin.ext (by match a with | ⟨0, _⟩ => rfl | ⟨1, _⟩ => rfl | ⟨2, _⟩ => rfl)
    show val_main_v17 (F := Ideal) x0 x1 x2 x3 x4 x7 (hred.lift (ix2 b s) t) = _
    rw [ei, scores_apply]
  rw [e]
  exact max_start_fold _ _ _

/-- The shifted exponentials. -/
theorem num_apply (b : Fin 32) (s t : Fin 1024) :
    val_main_v24 (F := Ideal) x0 x1 x2 x3 x4 x7 (ix3 b s t) = num (qrow x0 x1 x2 x7 b s) (krows x0 x3 x4 x7 b) t := by
  rw [val_main_v24_apply, val_main_v23_apply, val_main_v22_apply, val_main_v21_apply]
  have e : idx_main_v21 (idx_main_v22 (ix3 b s t)) = ix2 b s :=
    funext fun a => Fin.ext (by match a with | ⟨0, _⟩ => rfl | ⟨1, _⟩ => rfl)
  rw [e, rowmax_apply, scores_apply]
  rfl

/-- Their sum over the row, from zero. -/
theorem den_apply (b : Fin 32) (s : Fin 1024) :
    val_main_v25 (F := Ideal) x0 x1 x2 x3 x4 x7 (ix2 b s) = den (qrow x0 x1 x2 x7 b s) (krows x0 x3 x4 x7 b) := by
  rw [val_main_v25_apply, val_main_cst_2_apply, Ideal.ofBits_def, Ideal.ofBits_zero_f32, zero_add]
  unfold den
  refine Finset.sum_congr rfl fun k _ => ?_
  have e : idx_main_v25 (ix2 b s) k = ix3 b s k :=
    funext fun a => Fin.ext (by match a with | ⟨0, _⟩ => rfl | ⟨1, _⟩ => rfl | ⟨2, _⟩ => rfl)
  rw [e, num_apply]

/-- The normalized weights. -/
theorem weight_apply (b : Fin 32) (s t : Fin 1024) :
    val_main_v28 (F := Ideal) x0 x1 x2 x3 x4 x7 (ix3 b s t)
      = Ideal.div (num (qrow x0 x1 x2 x7 b s) (krows x0 x3 x4 x7 b) t) (den (qrow x0 x1 x2 x7 b s) (krows x0 x3 x4 x7 b)) := by
  rw [val_main_v28_apply, val_main_v27_apply, val_main_v26_apply]
  have e : idx_main_v26 (idx_main_v27 (ix3 b s t)) = ix2 b s :=
    funext fun a => Fin.ext (by match a with | ⟨0, _⟩ => rfl | ⟨1, _⟩ => rfl)
  rw [e, den_apply, num_apply]
  rfl

/-- The result at (b, s, e): the weighted sum of the value rows. -/
theorem result_apply (b : Fin 32) (s : Fin 1024) (e : Fin 768) :
    val_main_v29 (F := Ideal) x0 x1 x2 x3 x4 x5 x6 x7 (ix3 b s e) = attnAt x0 x1 x2 x3 x4 x5 x6 x7 b s e := by
  rw [val_main_v29_apply]
  unfold attnAt attnRow
  refine Finset.sum_congr rfl fun k _ => ?_
  have el : lidx_main_v29 (ix3 b s e) k = ix3 b s k :=
    funext fun a => Fin.ext (by match a with | ⟨0, _⟩ => rfl | ⟨1, _⟩ => rfl | ⟨2, _⟩ => rfl)
  have er : ridx_main_v29 (ix3 b s e) k = ix3 b k e :=
    funext fun a => Fin.ext (by match a with | ⟨0, _⟩ => rfl | ⟨1, _⟩ => rfl | ⟨2, _⟩ => rfl)
  rw [el, er, weight_apply, v_apply]

/-- The reference's result array is the attention of its arguments. -/
theorem result_eq : val_main_v29 (F := Ideal) x0 x1 x2 x3 x4 x5 x6 x7 = attn x0 x1 x2 x3 x4 x5 x6 x7 := by
  funext i
  rw [eq_ix3 i]
  exact result_apply x0 x1 x2 x3 x4 x5 x6 x7 (i 0) (i 1) (i 2)

end Cert.ReferenceIdeal.RefValue

end
-- ==== Proof.lean ====
/-
  The kernel — single-head self-attention over x + pos, the K and V rows of a batch computed once at the batch's first
  query tile and kept resident for its second — against the plain jnp attention: at the ideal values both result
  arrays are one function of the eight arguments, `Cert.Attn.attn` (Proof/Spec.lean).

  The reference is that function operation by operation (Proof/RefSpec.lean). The kernel's output block at grid point
  t = 2·b + qi is rows 512·qi … of batch b of it (Proof/KernelValue.lean: what a run of the body leaves in its
  buffers, Proof/Pieces.lean; the body's terms read at an index, Proof/Pay.lean; the blocks it reads as entries of
  the arguments, Proof/Blocks.lean), and the 64 blocks tile the array. No finiteness is needed: the two sides are the
  same sums, maxima, exponentials and quotients of the same extended reals, and the scale is the same f32 word on
  both sides. The rounding to bf16 before each product, in the kernel only, is the identity at the ideal values.
-/
import proofs.«155104_j47244640256234_2_alg».proof.Defs
import proofs.«155104_j47244640256234_2_alg».proof.Proof.Gen.Kernel
import proofs.«155104_j47244640256234_2_alg».proof.Proof.Gen.Kernel.Frame
import proofs.«155104_j47244640256234_2_alg».proof.Proof.Gen.KernelIdeal
import proofs.«155104_j47244640256234_2_alg».proof.Proof.Gen.KernelIdeal.Frame
import proofs.«155104_j47244640256234_2_alg».proof.Proof.Gen.KernelIdeal.Value
import proofs.«155104_j47244640256234_2_alg».proof.Proof.Gen.ReferenceIdeal
import proofs.«155104_j47244640256234_2_alg».proof.Proof.Gen.ReferenceIdeal.Run
import proofs.«155104_j47244640256234_2_alg».proof.Proof.Gen.ReferenceIdeal.Read
import proofs.«155104_j47244640256234_2_alg».proof.Proof.Gen.Pre_finite_inputs
import proofs.«155104_j47244640256234_2_alg».proof.Proof.KernelValue
import proofs.«155104_j47244640256234_2_alg».proof.Proof.RefSpec

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the attention of the arguments in their result array. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
